-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x1024 : Shape := ⟨3, ![16, 8192, 1024]⟩
abbrev S1024x1024 : Shape := ⟨2, ![1024, 1024]⟩
abbrev S1024 : Shape := ⟨1, ![1024]⟩
abbrev S_ : Shape := ⟨0, ![]⟩

class Facts : Prop where
  bcast_S_S16x8192x1024 : S_.BroadcastsInDim S16x8192x1024 (![] : Fin 0 → Fin S16x8192x1024.rank)
  reducesTo_S16x8192x1024_S_d0_1_2 : S16x8192x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S16x8192x1024 .f32) (main_arg1 : FVec F S1024x1024 .f32) (main_arg2 : FVec F S1024 .f32) : IVec S_ 1 :=
  let main_v0 : FVec F S16x8192x1024 .f32 := Host.absf main_arg0
  let main_cst : FVec F S_ .f32 := constant S_ .f32 0x7F800000#32
  let main_v1 : FVec F S16x8192x1024 .f32 := broadcastInDim S16x8192x1024 ![] bcast_S_S16x8192x1024 main_cst
  let main_v2 : IVec S16x8192x1024 1 := cmpf .olt main_v0 main_v1
  let main_c : IVec S_ 1 := constantI S_ 1 1#1
  let main_v3 : IVec S_ 1 := (fun x v => Host.reduce IntOp.andi x v reducesTo_S16x8192x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S16x8192x1024 : Shape := ⟨3, ![16, 8192, 1024]⟩
abbrev S1024x1024 : Shape := ⟨2, ![1024, 1024]⟩
abbrev S1024 : Shape := ⟨1, ![1024]⟩
abbrev S1x1024 : Shape := ⟨2, ![1, 1024]⟩
abbrev S16x1024 : Shape := ⟨2, ![16, 1024]⟩
abbrev S8x256x1024 : Shape := ⟨3, ![8, 256, 1024]⟩
abbrev S8x1024 : Shape := ⟨2, ![8, 1024]⟩
abbrev S8x128x1024 : Shape := ⟨3, ![8, 128, 1024]⟩

abbrev nBuf : Space → Nat
  | .hbm => 6
  | .vmem => 8
  | .smem => 0
  | _ => 0

abbrev bufTy : (tb : Table) → Fin (tcTables nBuf tb) → BufTy
  | .hbm, ⟨0, _⟩ => ⟨S16x8192x1024, .f32⟩
  | .hbm, ⟨1, _⟩ => ⟨S1024x1024, .f32⟩
  | .hbm, ⟨2, _⟩ => ⟨S1024, .f32⟩
  | .hbm, ⟨3, _⟩ => ⟨S1024x1024, .bf16⟩
  | .hbm, ⟨4, _⟩ => ⟨S1x1024, .f32⟩
  | .hbm, ⟨5, _⟩ => ⟨S16x1024, .f32⟩
  | .local _ .vmem, ⟨0, _⟩ => ⟨S8x256x1024, .f32⟩
  | .local _ .vmem, ⟨1, _⟩ => ⟨S8x256x1024, .f32⟩
  | .local _ .vmem, ⟨2, _⟩ => ⟨S1024x1024, .bf16⟩
  | .local _ .vmem, ⟨3, _⟩ => ⟨S1x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | _, _ => ⟨S16x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_4 : BitVec 32 := 0#32
  let c2_i32 : BitVec 32 := 2#32
  let v5 : BitVec 32 := Scalar.addi c0_i32_4 c2_i32
  let c1_i32 : BitVec 32 := 1#32
  ⟨c0_i32_4, v5, c1_i32⟩
def k0_mult1 (k0_t1 : Fin k0_t1_loop.trips) : BitVec 32 :=
  let c0_i32_4 : BitVec 32 := 0#32
  let c1_i32 : BitVec 32 := 1#32
  let arg8 : BitVec 32 := Scf.iv c0_i32_4 c1_i32 k0_t1
  let c128_i32 : BitVec 32 := 128#32
  let v16 : BitVec 32 := Scalar.muli arg8 c128_i32
  v16
def k0_off1 (k0_t1 : Fin k0_t1_loop.trips) : Fin 3 → Nat :=
  let c0_11 : Index := 0#32
  let c0_i32_4 : BitVec 32 := 0#32
  let c1_i32 : BitVec 32 := 1#32
  let arg8 : BitVec 32 := Scf.iv c0_i32_4 c1_i32 k0_t1
  let c128_i32 : BitVec 32 := 128#32
  let v16 : BitVec 32 := Scalar.muli arg8 c128_i32
  let v17 : BitVec 32 := v16
  let v18 : Index := Scalar.indexCast v17
  let c0_12 : Index := 0#32
  ![0, v18.toNat, 0]
def k0_cond2 (i : grid0.Coords) : BitVec 1 :=
  let arg1 : BitVec 32 := BitVec.ofNat 32 (i 1).val
  let c31_i32 : BitVec 32 := 31#32
  let v13 : BitVec 1 := Scalar.cmpi .eq arg1 c31_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bitsLt_bf16_f32 : FTy.bits .bf16 < FTy.bits .f32
  shapeCasts_S1024_S1x1024 : S1024.ShapeCasts S1x1024
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  h_S8x128x1024 : 0 < S8x128x1024.numel
  reduces_S8x128x1024_S8x1024 : S8x128x1024.Reduces [1] S8x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S8x1024 : S1x1024.Broadcasts S8x1024
  dot_S8x1024_S1024x1024_S8x1024_1_1_0_0_n_n_wf : DotDims.WF S8x1024 S1024x1024 S8x1024 [1] [1] [0] [0] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S8x128x1024.size a ≤ S8x256x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x1024.size a ≤ S16x8192x1024.size a
  hwx0_0 : ∀ i : grid0.Coords, EltTy.bits .f32 = 32 ∨ (Rect.block (s := S16x8192x1024) S8x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S16x1024.size a
  hwx0_3 : ∀ i : grid0.Coords, EltTy.bits .f32 = 32 ∨ (Rect.block (s := S16x1024) S8x1024.size (cc0_transform_3 i) (hinb0_3 i)).WholeWords (EltTy.packing .f32)

variable [Facts₀]

def dot_S8x1024_S1024x1024_S8x1024_1_1_0_0_n_n : DotDims S8x1024 S1024x1024 S8x1024 where
  lhsContracting := [1]
  rhsContracting := [1]
  lhsNonContracting := [0]
  rhsNonContracting := [0]
  lhsBatch := []
  rhsBatch := []
  wf := dot_S8x1024_S1024x1024_S8x1024_1_1_0_0_n_n_wf

abbrev win0_0 : Pipeline.Window sig grid0 :=
  Pipeline.Window.ofSpec (Memref.whole main_arg0) S8x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x8192x1024 : Shape := ⟨3, ![16, 8192, 1024]⟩
abbrev S1024x1024 : Shape := ⟨2, ![1024, 1024]⟩
abbrev S1024 : Shape := ⟨1, ![1024]⟩
abbrev S16x1024x8192 : Shape := ⟨3, ![16, 1024, 8192]⟩
abbrev S_ : Shape := ⟨0, ![]⟩
abbrev S16x1024 : Shape := ⟨2, ![16, 1024]⟩
abbrev S16x1024x1 : Shape := ⟨3, ![16, 1024, 1]⟩
abbrev S1x1024 : Shape := ⟨2, ![1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S16x8192x1024, .f32⟩
  | .hbm, ⟨1, _⟩ => ⟨S1024x1024, .f32⟩
  | .hbm, ⟨2, _⟩ => ⟨S1024, .f32⟩
  | .hbm, ⟨3, _⟩ => ⟨S16x1024x8192, .f32⟩
  | .hbm, ⟨4, _⟩ => ⟨S_, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S16x1024x1, .f32⟩
  | .hbm, ⟨10, _⟩ => ⟨S16x1024x8192, .f32⟩
  | .hbm, ⟨11, _⟩ => ⟨S16x1024x8192, .f32⟩
  | .hbm, ⟨12, _⟩ => ⟨S16x1024x8192, .f32⟩
  | .hbm, ⟨13, _⟩ => ⟨S_, .f32⟩
  | .hbm, ⟨14, _⟩ => ⟨S16x1024, .f32⟩
  | .hbm, ⟨15, _⟩ => ⟨S16x1024x1, .f32⟩
  | .hbm, ⟨16, _⟩ => ⟨S16x1024x8192, .f32⟩
  | .hbm, ⟨17, _⟩ => ⟨S16x1024x8192, .f32⟩
  | .hbm, ⟨18, _⟩ => ⟨S16x1024x8192, .f32⟩
  | .hbm, ⟨19, _⟩ => ⟨S_, .f32⟩
  | .hbm, ⟨20, _⟩ => ⟨S16x1024, .f32⟩
  | .hbm, ⟨21, _⟩ => ⟨S1024x1024, .f32⟩
  | .hbm, ⟨22, _⟩ => ⟨S16x1024, .f32⟩
  | .hbm, ⟨23, _⟩ => ⟨S1x1024, .f32⟩
  | .hbm, ⟨24, _⟩ => ⟨S16x1024, .f32⟩
  | .hbm, ⟨25, _⟩ => ⟨S16x1024, .f32⟩
  | .hbm, ⟨26, _⟩ => ⟨S16x1024, .f32⟩
  | _, _ => ⟨S16x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  transposes_S16x8192x1024_S16x1024x8192_0_2_1 : S16x8192x1024.Transposes [0, 2, 1] S16x1024x8192
  reducesTo_S16x1024x8192_S16x1024_d2 : S16x1024x8192.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x8192_0_1_2 : S16x1024x1.BroadcastsInDim S16x1024x8192 (![0, 1, 2] : Fin 3 → Fin S16x1024x8192.rank)
  transposes_S1024x1024_S1024x1024_1_0 : S1024x1024.Transposes [1, 0] S1024x1024
  bcast_S1024_S1x1024_1 : S1024.BroadcastsInDim S1x1024 (![1] : Fin 1 → Fin S1x1024.rank)
  bcast_S1x1024_S16x1024_0_1 : S1x1024.BroadcastsInDim S16x1024 (![0, 1] : Fin 2 → Fin S16x1024.rank)
  dot_S16x1024_S1024x1024_S16x1024_1_0_0_1_n_n_wf : DotDims.WF S16x1024 S1024x1024 S16x1024 [1] [0] [0] [1] [] []

variable [Facts₀]

def dot_S16x1024_S1024x1024_S16x1024_1_0_0_1_n_n : DotDims S16x1024 S1024x1024 S16x1024 where
  lhsContracting := [1]
  rhsContracting := [0]
  lhsNonContracting := [0]
  rhsNonContracting := [1]
  lhsBatch := []
  rhsBatch := []
  wf := dot_S16x1024_S1024x1024_S16x1024_1_0_0_1_n_n_wf

class Facts : Prop extends Facts₀ where

variable [Facts]
-- ==== Proof.KernelPieces.lean ====
/-
  The pooling kernel's body, read as pure functions of the blocks it loads.

  One grid point stages a block of 8 batch rows × 256 sequence rows × 1024 features. The body's inner loop makes
  two trips; trip k loads sequence rows 128k … 128k+127 of the block ("rows"), adds the sum over those rows of
  exp x to the first running sum and the sum of x · exp x to the second. So one grid point maps the pair of
  running sums (l, a) to (stepL l x, stepA a x). The first point of a batch block starts from zeros; the last one
  finally stores tanh ((a / l) · Wᵀ + b).
-/
import proofs.«142981_j55825984913418_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Pool

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Sequence rows 128k … 128k+127 of a staged block: what trip k of the inner loop loads. -/
def rows (x0 : Vec F S8x256x1024 .f32) (k : Fin k0_t1_loop.trips) : Vec F S8x128x1024 .f32 :=
  View.ld x0 (Rect.unit (s := S8x256x1024) (k0_off1 k) S8x128x1024.size (k0_off1_inb k))

/-- One grid point's update of the running sum of exp x: both trips' row sums added in turn. -/
def stepL (acc : Vec F S8x1024 .f32) (x0 : Vec F S8x256x1024 .f32) : Vec F S8x1024 .f32 :=
  k0_pay4 (k0_pay4 acc (rows x0 ⟨0, by decide⟩)) (rows x0 ⟨1, by decide⟩)

/-- One grid point's update of the running sum of x · exp x. -/
def stepA (acc : Vec F S8x1024 .f32) (x0 : Vec F S8x256x1024 .f32) : Vec F S8x1024 .f32 :=
  k0_pay5 (k0_pay5 acc (rows x0 ⟨0, by decide⟩)) (rows x0 ⟨1, by decide⟩)

theorem zero2 : (![0, 0] : Fin 2 → Nat) = fun _ => 0 := by
  funext a; match a with | ⟨0, _⟩ => rfl | ⟨1, _⟩ => rfl

/-- One trip of the loop: the carried pair updated with the rows the trip loads. -/
theorem trip_eq (𝒱 : Variants) (c : Dev nD) (bd : Option 𝒱.V) (i : grid0.Coords) (arg2 : Memref sig .tc .vmem S8x256x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S8x1024 .f32) (harg7 : arg7.IsWhole)
    (X : BufTy.Contents (Elt F) arg2.view.ty) (k : Fin k0_t1_loop.trips) (acc : Vec F S8x1024 .f32 × Vec F S8x1024 .f32) :
    tripR_k0_t1 (F := F) 𝒱 c bd i arg2 harg2 arg3 harg3 arg4 harg4 arg5 harg5 arg6 harg6 arg7 harg7 X k acc
      = (k0_pay4 acc.1 (View.readAt (Elt F) arg2.view (Rect.unit (s := S8x256x1024) (k0_off1 k) S8x128x1024.size (k0_off1_inb k)).toLoadRect X),
         k0_pay5 acc.2 (View.readAt (Elt F) arg2.view (Rect.unit (s := S8x256x1024) (k0_off1 k) S8x128x1024.size (k0_off1_inb k)).toLoadRect X)) := by
  unfold tripR_k0_t1 trip_k0_t1
  rfl

/-- The loop has two trips: its result is the second trip's update of the first trip's. -/
theorem loop_two (𝒱 : Variants) (c : Dev nD) (bd : Option 𝒱.V) (i : grid0.Coords) (arg2 : Memref sig .tc .vmem S8x256x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S8x1024 .f32) (harg7 : arg7.IsWhole)
    (X : BufTy.Contents (Elt F) arg2.view.ty) (init : Vec F S8x1024 .f32 × Vec F S8x1024 .f32) (n : ℕ) (hn : n = 2) :
    st_k0_t1 (F := F) 𝒱 c bd i arg2 harg2 arg3 harg3 arg4 harg4 arg5 harg5 arg6 harg6 arg7 harg7 X init n
      = tripR_k0_t1 (F := F) 𝒱 c bd i arg2 harg2 arg3 harg3 arg4 harg4 arg5 harg5 arg6 harg6 arg7 harg7 X ⟨1, by decide⟩ (tripR_k0_t1 (F := F) 𝒱 c bd i arg2 harg2 arg3 harg3 arg4 harg4 arg5 harg5 arg6 harg6 arg7 harg7 X ⟨0, by decide⟩ init) := by
  subst hn
  refine (st_k0_t1_succ 𝒱 c bd i arg2 harg2 arg3 harg3 arg4 harg4 arg5 harg5 arg6 harg6 arg7 harg7 X init ⟨1, by decide⟩).trans ?_
  exact congrArg _ (st_k0_t1_succ 𝒱 c bd i arg2 harg2 arg3 harg3 arg4 harg4 arg5 harg5 arg6 harg6 arg7 harg7 X init ⟨0, by decide⟩)

/-- The loop's result on a whole staged block, from the carried pair it starts with. -/
theorem loop_eq (𝒱 : Variants) (c : Dev nD) (bd : Option 𝒱.V) (i : grid0.Coords) (arg2 : Memref sig .tc .vmem S8x256x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S8x1024 .f32) (harg7 : arg7.IsWhole)
    (x0 : Vec F S8x256x1024 .f32) (init : Vec F S8x1024 .f32 × Vec F S8x1024 .f32) (n : ℕ) (hn : n = 2) :
    st_k0_t1 (F := F) 𝒱 c bd i arg2 harg2 arg3 harg3 arg4 harg4 arg5 harg5 arg6 harg6 arg7 harg7 (harg2.unread x0) init n = (stepL init.1 x0, stepA init.2 x0) := by
  rw [loop_two 𝒱 c bd i arg2 harg2 arg3 harg3 arg4 harg4 arg5 harg5 arg6 harg6 arg7 harg7 _ init n hn, trip_eq, trip_eq]
  simp only [View.readAt_eq_ld, harg2.read_unread]
  rfl

theorem pay6_eq (v : Vec F S8x1024 .f32) : k0_pay6 v = v := by
  unfold k0_pay6; exact shapeCast_self _ _

theorem pay7_eq (v : Vec F S8x1024 .f32) : k0_pay7 v = v := by
  unfold k0_pay7; exact shapeCast_self _ _

/-! ## What each case leaves in the two running sums, and the last case in the output block -/

theorem scratch0_first (c : Dev nD) (i : grid0.Coords) (arg2 : Memref sig .tc .vmem S8x256x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S8x1024 .f32) (harg7 : arg7.IsWhole) (hc0 : cond0_0 i) (hc1 : ¬cond0_1 i)
    (x0 : Vec F S8x256x1024 .f32) (x1 : Vec F S1024x1024 .bf16) (x2 : Vec F S1x1024 .f32) :
    sout0_A_0 c i arg2 harg2 arg3 harg3 arg4 harg4 arg5 harg5 arg6 harg6 arg7 harg7 hc0 hc1 x0 x1 x2 = stepL k0_pay1 x0 := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  have h2 : Scf.trips (0#32) (Scalar.addi 0#32 2#32) 1#32 = 2 := by decide
  rw [View.canon_cons_unit_zero zero2, loop_eq Variants.none c none i arg2 harg2 arg3 harg3 arg4 harg4 arg5 harg5 arg6 harg6 arg7 harg7 x0 _ _ h2, pay6_eq]
  simp only [View.readCov_unit_zero (S := S8x1024) _ zero2]

theorem scratch0_middle (c : Dev nD) (i : grid0.Coords) (arg2 : Memref sig .tc .vmem S8x256x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S8x1024 .f32) (harg7 : arg7.IsWhole) (hc0 : ¬cond0_0 i) (hc1 : ¬cond0_1 i)
    (x0 : Vec F S8x256x1024 .f32) (x1 : Vec F S1024x1024 .bf16) (x2 : Vec F S1x1024 .f32) (xs0 : Vec F S8x1024 .f32) (xs1 : Vec F S8x1024 .f32) :
    sout0_B_0 c i arg2 harg2 arg3 harg3 arg4 harg4 arg5 harg5 arg6 harg6 arg7 harg7 hc0 hc1 x0 x1 x2 xs0 xs1 = stepL xs0 x0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  sl_unfold_words
  have h2 : Scf.trips (0#32) (Scalar.addi 0#32 2#32) 1#32 = 2 := by decide
  rw [View.canon_unit_zero zero2, loop_eq Variants.none c none i arg2 harg2 arg3 harg3 arg4 harg4 arg5 harg5 arg6 harg6 arg7 harg7 x0 _ _ h2, pay6_eq]
  simp only [View.readAt_eq_ld, harg6.read_unread, View.ld_unit_zero (S := S8x1024) zero2]

theorem out_last (c : Dev nD) (i : grid0.Coords) (arg2 : Memref sig .tc .vmem S8x256x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S8x1024 .f32) (harg7 : arg7.IsWhole) (hc0 : ¬cond0_0 i) (hc1 : cond0_1 i)
    (x0 : Vec F S8x256x1024 .f32) (x1 : Vec F S1024x1024 .bf16) (x2 : Vec F S1x1024 .f32) (xs0 : Vec F S8x1024 .f32) (xs1 : Vec F S8x1024 .f32) :
    out0_C_3 c i arg2 harg2 arg3 harg3 arg4 harg4 arg5 harg5 arg6 harg6 arg7 harg7 hc0 hc1 x0 x1 x2 xs0 xs1 = k0_pay8 (stepA xs1 x0) (stepL xs0 x0) x1 x2 := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  have h2 : Scf.trips k0_t1_loop.lb k0_t1_loop.ub k0_t1_loop.st = 2 := by decide
  rw [View.canon_unit_zero zero2]
  simp only [View.readCov_unit_zero (S := S8x1024) _ zero2, loop_eq Variants.none c none i arg2 harg2 arg3 harg3 arg4 harg4 arg5 harg5 arg6 harg6 arg7 harg7 x0 _ _ h2, pay6_eq, pay7_eq,
    View.readAt_eq_ld, harg3.read_unread, harg4.read_unread, harg6.read_unread, harg7.read_unread,
    View.ld_unit_zero (S := S8x1024) zero2, View.ld_unit_zero (S := S1024x1024) zero2, View.ld_unit_zero (S := S1x1024) zero2]

theorem scratch1_first (c : Dev nD) (i : grid0.Coords) (arg2 : Memref sig .tc .vmem S8x256x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S8x1024 .f32) (harg7 : arg7.IsWhole) (hc0 : cond0_0 i) (hc1 : ¬cond0_1 i)
    (x0 : Vec F S8x256x1024 .f32) (x1 : Vec F S1024x1024 .bf16) (x2 : Vec F S1x1024 .f32) :
    sout0_A_1 c i arg2 harg2 arg3 harg3 arg4 harg4 arg5 harg5 arg6 harg6 arg7 harg7 hc0 hc1 x0 x1 x2 = stepA k0_pay2 x0 := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  have h2 : Scf.trips (0#32) (Scalar.addi 0#32 2#32) 1#32 = 2 := by decide
  rw [View.canon_cons_unit_zero zero2, loop_eq Variants.none c none i arg2 harg2 arg3 harg3 arg4 harg4 arg5 harg5 arg6 harg6 arg7 harg7 x0 _ _ h2, pay7_eq]
  simp only [View.readCov_unit_zero (S := S8x1024) _ zero2]

theorem scratch1_middle (c : Dev nD) (i : grid0.Coords) (arg2 : Memref sig .tc .vmem S8x256x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S8x1024 .f32) (harg7 : arg7.IsWhole) (hc0 : ¬cond0_0 i) (hc1 : ¬cond0_1 i)
    (x0 : Vec F S8x256x1024 .f32) (x1 : Vec F S1024x1024 .bf16) (x2 : Vec F S1x1024 .f32) (xs0 : Vec F S8x1024 .f32) (xs1 : Vec F S8x1024 .f32) :
    sout0_B_1 c i arg2 harg2 arg3 harg3 arg4 harg4 arg5 harg5 arg6 harg6 arg7 harg7 hc0 hc1 x0 x1 x2 xs0 xs1 = stepA xs1 x0 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  sl_unfold_words
  have h2 : Scf.trips (0#32) (Scalar.addi 0#32 2#32) 1#32 = 2 := by decide
  rw [View.canon_unit_zero zero2, loop_eq Variants.none c none i arg2 harg2 arg3 harg3 arg4 harg4 arg5 harg5 arg6 harg6 arg7 harg7 x0 _ _ h2, pay7_eq]
  simp only [View.readAt_eq_ld, harg7.read_unread, View.ld_unit_zero (S := S8x1024) zero2]

theorem scratch0_last (c : Dev nD) (i : grid0.Coords) (arg2 : Memref sig .tc .vmem S8x256x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S8x1024 .f32) (harg7 : arg7.IsWhole) (hc0 : ¬cond0_0 i) (hc1 : cond0_1 i)
    (x0 : Vec F S8x256x1024 .f32) (x1 : Vec F S1024x1024 .bf16) (x2 : Vec F S1x1024 .f32) (xs0 : Vec F S8x1024 .f32) (xs1 : Vec F S8x1024 .f32) :
    sout0_C_0 c i arg2 harg2 arg3 harg3 arg4 harg4 arg5 harg5 arg6 harg6 arg7 harg7 hc0 hc1 x0 x1 x2 xs0 xs1 = stepL xs0 x0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_words
  have h2 : Scf.trips k0_t1_loop.lb k0_t1_loop.ub k0_t1_loop.st = 2 := by decide
  rw [View.canon_unit_zero zero2, loop_eq Variants.none c none i arg2 harg2 arg3 harg3 arg4 harg4 arg5 harg5 arg6 harg6 arg7 harg7 x0 _ _ h2, pay6_eq]
  simp only [View.readAt_eq_ld, harg6.read_unread, View.ld_unit_zero (S := S8x1024) zero2]

theorem scratch1_last (c : Dev nD) (i : grid0.Coords) (arg2 : Memref sig .tc .vmem S8x256x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S8x1024 .f32) (harg7 : arg7.IsWhole) (hc0 : ¬cond0_0 i) (hc1 : cond0_1 i)
    (x0 : Vec F S8x256x1024 .f32) (x1 : Vec F S1024x1024 .bf16) (x2 : Vec F S1x1024 .f32) (xs0 : Vec F S8x1024 .f32) (xs1 : Vec F S8x1024 .f32) :
    sout0_C_1 c i arg2 harg2 arg3 harg3 arg4 harg4 arg5 harg5 arg6 harg6 arg7 harg7 hc0 hc1 x0 x1 x2 xs0 xs1 = stepA xs1 x0 := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  sl_unfold_words
  have h2 : Scf.trips k0_t1_loop.lb k0_t1_loop.ub k0_t1_loop.st = 2 := by decide
  rw [View.canon_unit_zero zero2, loop_eq Variants.none c none i arg2 harg2 arg3 harg3 arg4 harg4 arg5 harg5 arg6 harg6 arg7 harg7 x0 _ _ h2, pay7_eq]
  simp only [View.readAt_eq_ld, harg7.read_unread, View.ld_unit_zero (S := S8x1024) zero2]

end Cert.KernelIdeal.Pool
end
-- ==== Proof.KernelSums.lean ====
/-
  The kernel's per-point updates read at an index, on the extended reals.

  For a staged block x (8 × 256 × 1024), batch row b and feature h:
    stepL l x (b, h) = l (b, h) + Σ_{r < 128} exp x(b, r, h) + Σ_{r < 128} exp x(b, 128 + r, h)
    stepA a x (b, h) = a (b, h) + Σ_{r < 128} x(b, r, h) · exp x(b, r, h) + Σ_{r < 128} (the same at 128 + r)
  and the last point's output is tanh (Σ_j (a / l)(b, j) · W(h, j) + bias(h)).
-/
import proofs.«142981_j55825984913418_2_alg».proof.Proof.KernelPieces
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Pool

open Cert.KernelIdeal Cert.KernelIdeal.Gen Idealize.ShloMosaic Idealize.ShloMosaic.TcCoe Idealize.ShloMosaic.ValueIdx

/-- Row r of the first half of a staged block is row r; of the second half, row 128 + r. -/
theorem rows0_apply (x0 : FVec Ideal S8x256x1024 .f32) (b : Fin 8) (r : Fin 128) (h : Fin 1024) :
    rows (F := Ideal) x0 ⟨0, by decide⟩ (ix3 b r h) = x0 (ix3 b ⟨r.val, by omega⟩ h) := by
  unfold rows
  show x0 _ = x0 _
  refine congrArg x0 (funext fun a => Fin.ext ?_)
  show (k0_off1 ⟨0, by decide⟩) a + 1 * ((ix3 b r h : S8x128x1024.Idx) a).val = _
  rw [k0_off1_eq]
  match a with
  | ⟨0, _⟩ => show 0 + 1 * b.val = b.val; omega
  | ⟨1, _⟩ => show 128 * 0 + 1 * r.val = r.val; omega
  | ⟨2, _⟩ => show 0 + 1 * h.val = h.val; omega

theorem rows1_apply (x0 : FVec Ideal S8x256x1024 .f32) (b : Fin 8) (r : Fin 128) (h : Fin 1024) :
    rows (F := Ideal) x0 ⟨1, by decide⟩ (ix3 b r h) = x0 (ix3 b ⟨128 + r.val, by omega⟩ h) := by
  unfold rows
  show x0 _ = x0 _
  refine congrArg x0 (funext fun a => Fin.ext ?_)
  show (k0_off1 ⟨1, by decide⟩) a + 1 * ((ix3 b r h : S8x128x1024.Idx) a).val = _
  rw [k0_off1_eq]
  match a with
  | ⟨0, _⟩ => show 0 + 1 * b.val = b.val; omega
  | ⟨1, _⟩ => show 128 * 1 + 1 * r.val = 128 + r.val; omega
  | ⟨2, _⟩ => show 0 + 1 * h.val = h.val; omega

/-- One trip's update of the first running sum: the sum over the trip's 128 rows of exp. -/
theorem pay4_apply (acc : FVec Ideal S8x1024 .f32) (v : FVec Ideal S8x128x1024 .f32) (b : Fin 8) (h : Fin 1024) :
    k0_pay4 (F := Ideal) acc v (ix2 b h) = acc (ix2 b h) + ∑ r : Fin 128, Ideal.exp (v (ix3 b r h)) := by
  unfold k0_pay4 k0_pay3
  refine congrArg (acc (ix2 b h) + ·) ?_
  refine (Ideal.multiReduction_add_single (exp v) 0x00000000#32 reduces_S8x128x1024_S8x1024 (.inl rfl) rfl (ix2 b h)).trans ?_
  refine Finset.sum_congr rfl fun r _ => ?_
  exact congrArg (fun j => Ideal.exp (v j)) (funext fun a => Fin.ext (by match a with | ⟨0, _⟩ => rfl | ⟨1, _⟩ => rfl | ⟨2, _⟩ => rfl))

/-- One trip's update of the second running sum: the sum over the trip's 128 rows of x · exp x. -/
theorem pay5_apply (acc : FVec Ideal S8x1024 .f32) (v : FVec Ideal S8x128x1024 .f32) (b : Fin 8) (h : Fin 1024) :
    k0_pay5 (F := Ideal) acc v (ix2 b h) = acc (ix2 b h) + ∑ r : Fin 128, v (ix3 b r h) * Ideal.exp (v (ix3 b r h)) := by
  unfold k0_pay5 k0_pay3
  refine congrArg (acc (ix2 b h) + ·) ?_
  refine (Ideal.multiReduction_add_single (mulf v (exp v)) 0x00000000#32 reduces_S8x128x1024_S8x1024 (.inl rfl) rfl (ix2 b h)).trans ?_
  refine Finset.sum_congr rfl fun r _ => ?_
  exact congrArg (fun j => v j * Ideal.exp (v j)) (funext fun a => Fin.ext (by match a with | ⟨0, _⟩ => rfl | ⟨1, _⟩ => rfl | ⟨2, _⟩ => rfl))

/-- A grid point adds to the first running sum the sum of exp over the block's 256 sequence rows, in two halves. -/
theorem stepL_apply (acc : FVec Ideal S8x1024 .f32) (x0 : FVec Ideal S8x256x1024 .f32) (b : Fin 8) (h : Fin 1024) :
    stepL (F := Ideal) acc x0 (ix2 b h)
      = acc (ix2 b h) + ∑ r : Fin 128, Ideal.exp (x0 (ix3 b ⟨r.val, by omega⟩ h))
          + ∑ r : Fin 128, Ideal.exp (x0 (ix3 b ⟨128 + r.val, by omega⟩ h)) := by
  unfold stepL
  refine (pay4_apply _ _ b h).trans ?_
  refine congrArg₂ (· + ·) ((pay4_apply _ _ b h).trans ?_) (Finset.sum_congr rfl fun r _ => ?_)
  · exact congrArg (acc (ix2 b h) + ·) (Finset.sum_congr rfl fun r _ => congrArg Ideal.exp (rows0_apply x0 b r h))
  · exact congrArg Ideal.exp (rows1_apply x0 b r h)

/-- … and to the second the sum of x · exp x over them. -/
theorem stepA_apply (acc : FVec Ideal S8x1024 .f32) (x0 : FVec Ideal S8x256x1024 .f32) (b : Fin 8) (h : Fin 1024) :
    stepA (F := Ideal) acc x0 (ix2 b h)
      = acc (ix2 b h) + ∑ r : Fin 128, x0 (ix3 b ⟨r.val, by omega⟩ h) * Ideal.exp (x0 (ix3 b ⟨r.val, by omega⟩ h))
          + ∑ r : Fin 128, x0 (ix3 b ⟨128 + r.val, by omega⟩ h) * Ideal.exp (x0 (ix3 b ⟨128 + r.val, by omega⟩ h)) := by
  unfold stepA
  refine (pay5_apply _ _ b h).trans ?_
  refine congrArg₂ (· + ·) ((pay5_apply _ _ b h).trans ?_) (Finset.sum_congr rfl fun r _ => ?_)
  · exact congrArg (acc (ix2 b h) + ·) (Finset.sum_congr rfl fun r _ => by rw [rows0_apply x0 b r h])
  · rw [rows1_apply x0 b r h]

/-- The zero splat the first point of a batch block stores is 0 everywhere. -/
theorem pay1_apply (j : S8x1024.Idx) : k0_pay1 (F := Ideal) j = 0 := by
  unfold k0_pay1
  rw [shapeCast_self]
  exact Ideal.ofBits_zero_f32

theorem pay2_apply (j : S8x1024.Idx) : k0_pay2 (F := Ideal) j = 0 := by
  unfold k0_pay2
  rw [shapeCast_self]
  exact Ideal.ofBits_zero_f32

/-! ## The head: the last point's stored block at an index -/

/-- The matmul's dimension record: both operands contracted on their second axis. -/
abbrev DHead := dot_S8x1024_S1024x1024_S8x1024_1_1_0_0_n_n

theorem head_lhs_0 (i : S8x1024.Idx) (q : DHead.contr.Idx) : (DHead.lhsIdx i q 0).val = (i 0).val := by
  unfold DotDims.lhsIdx
  rw [dif_neg (show ¬(0 : Fin S8x1024.rank) ∈ DHead.lhsBatch by decide), dif_pos (show (0 : Fin S8x1024.rank) ∈ DHead.lhsNonContracting by decide)]
  rfl
theorem head_lhs_1 (i : S8x1024.Idx) (q : DHead.contr.Idx) : (DHead.lhsIdx i q 1).val = (q ⟨0, by decide⟩).val :=
  DHead.lhsIdx_val_of_single rfl i q
theorem head_rhs_0 (i : S8x1024.Idx) (q : DHead.contr.Idx) : (DHead.rhsIdx i q 0).val = (i 1).val := by
  unfold DotDims.rhsIdx
  rw [dif_neg (show ¬(0 : Fin S1024x1024.rank) ∈ DHead.rhsBatch by decide), dif_pos (show (0 : Fin S1024x1024.rank) ∈ DHead.rhsNonContracting by decide)]
  rfl
theorem head_rhs_1 (i : S8x1024.Idx) (q : DHead.contr.Idx) : (DHead.rhsIdx i q 1).val = (q ⟨0, by decide⟩).val :=
  DHead.rhsIdx_val_of_single rfl i q

/-- The last point's output at (b, k): tanh of the row (a / l)(b, ·) against row k of the weights, plus the bias at k. -/
theorem pay8_apply (a l : FVec Ideal S8x1024 .f32) (w : FVec Ideal S1024x1024 .bf16) (bias : FVec Ideal S1x1024 .f32)
    (b : Fin 8) (k : Fin 1024) :
    k0_pay8 (F := Ideal) a l w bias (ix2 b k)
      = Ideal.tanh ((∑ j : Fin 1024, Ideal.div (a (ix2 b j)) (l (ix2 b j)) * w (ix2 k j)) + bias (ix2 (0 : Fin 1) k)) := by
  unfold k0_pay8
  simp only [shapeCast_self]
  refine congrArg Ideal.tanh (congrArg₂ (· + ·) ?_ ?_)
  · refine (Ideal.matmul_constant_zero_apply DHead none _ _ (ix2 b k)).trans ?_
    rw [← Equiv.sum_comp (contrEquiv1 DHead 1024 rfl rfl).symm]
    refine Finset.sum_congr rfl fun j _ => ?_
    have hj := contrEquiv1_symm_val DHead 1024 rfl rfl j
    have el : DHead.lhsIdx (ix2 b k) ((contrEquiv1 DHead 1024 rfl rfl).symm j) = ix2 b j := funext fun ax => Fin.ext (by
      match ax with
      | ⟨0, _⟩ => exact head_lhs_0 _ _
      | ⟨1, _⟩ => exact (head_lhs_1 _ _).trans hj)
    have er : DHead.rhsIdx (ix2 b k) ((contrEquiv1 DHead 1024 rfl rfl).symm j) = ix2 k j := funext fun ax => Fin.ext (by
      match ax with
      | ⟨0, _⟩ => exact head_rhs_0 _ _
      | ⟨1, _⟩ => exact (head_rhs_1 _ _).trans hj)
    rw [el, er]
    rfl
  · exact broadcastTo_1b_ab_apply bias _ b k

end Cert.KernelIdeal.Pool
end
-- ==== Proof.KernelAccum.lean ====
/-
  The two running sums after every grid point, and the block the last point of a batch block stores.

  The grid has 2 × 32 points, point n = 32·q + j working on batch rows 8q … 8q+7 and sequence rows 256j … 256j+255.
  After point n the first scratch holds, at (b, h), the sum of exp x(8q+b, s, h) over s < 256·(j+1), and the second the
  sum of x · exp x over the same rows: by induction on n, the first point of a batch block starting from zero.
-/
import proofs.«142981_j55825984913418_2_alg».proof.Proof.KernelSums
import proofs.«142981_j55825984913418_2_alg».proof.Proof.Gen.KernelIdeal.Value

set_option maxRecDepth 16384

noncomputable section

namespace Cert.KernelIdeal.Pool

open Cert.KernelIdeal Cert.KernelIdeal.Gen Idealize.ShloMosaic Idealize.ShloMosaic.TcCoe Idealize.ShloMosaic.ValueIdx
open Idealize.ShloMosaic.Pipeline (Dat)

/-- An entry of the [16, 8192, 1024] input by natural coordinates (0 outside the array: never used). -/
def at3 (x : S16x8192x1024.Idx → EReal) (bb s hh : ℕ) : EReal :=
  if h : bb < 16 ∧ s < 8192 ∧ hh < 1024 then x (ix3 ⟨bb, h.1⟩ ⟨s, h.2.1⟩ ⟨hh, h.2.2⟩) else 0

/-- 256 more terms of a sum over an initial segment of the naturals, as two runs of 128. -/
theorem range_step (f : ℕ → EReal) (j : ℕ) :
    ∑ s ∈ Finset.range (256 * (j + 1)), f s
      = (∑ s ∈ Finset.range (256 * j), f s + ∑ r : Fin 128, f (256 * j + r.val)) + ∑ r : Fin 128, f (256 * j + (128 + r.val)) := by
  rw [show 256 * (j + 1) = (256 * j + 128) + 128 by ring, Finset.sum_range_add, Finset.sum_range_add, Finset.sum_range (fun x => f (256 * j + x)),
    Finset.sum_range (fun x => f (256 * j + 128 + x))]
  simp only [add_assoc]

/-- One grid point extends the first running sum by the 256 sequence rows of its block. -/
theorem stepL_range (prev : FVec Ideal S8x1024 .f32) (blk : FVec Ideal S8x256x1024 .f32) (b : Fin 8) (h : Fin 1024) (g : ℕ → EReal) (j : ℕ)
    (hprev : prev (ix2 b h) = ∑ s ∈ Finset.range (256 * j), Ideal.exp (g s))
    (hblk : ∀ r : Fin 256, blk (ix3 b r h) = g (256 * j + r.val)) :
    stepL (F := Ideal) prev blk (ix2 b h) = ∑ s ∈ Finset.range (256 * (j + 1)), Ideal.exp (g s) := by
  rw [stepL_apply, hprev, range_step (fun s => Ideal.exp (g s)) j]
  refine congrArg₂ (· + ·) (congrArg (_ + ·) (Finset.sum_congr rfl fun r _ => ?_)) (Finset.sum_congr rfl fun r _ => ?_)
  · exact congrArg Ideal.exp (hblk ⟨r.val, by omega⟩)
  · exact congrArg Ideal.exp (hblk ⟨128 + r.val, by omega⟩)

/-- … and the second. -/
theorem stepA_range (prev : FVec Ideal S8x1024 .f32) (blk : FVec Ideal S8x256x1024 .f32) (b : Fin 8) (h : Fin 1024) (g : ℕ → EReal) (j : ℕ)
    (hprev : prev (ix2 b h) = ∑ s ∈ Finset.range (256 * j), g s * Ideal.exp (g s))
    (hblk : ∀ r : Fin 256, blk (ix3 b r h) = g (256 * j + r.val)) :
    stepA (F := Ideal) prev blk (ix2 b h) = ∑ s ∈ Finset.range (256 * (j + 1)), g s * Ideal.exp (g s) := by
  rw [stepA_apply, hprev, range_step (fun s => g s * Ideal.exp (g s)) j]
  refine congrArg₂ (· + ·) (congrArg (_ + ·) (Finset.sum_congr rfl fun r _ => ?_)) (Finset.sum_congr rfl fun r _ => ?_)
  · rw [hblk ⟨r.val, by omega⟩]
  · rw [hblk ⟨128 + r.val, by omega⟩]

variable (m : (ℓ : Loc nD τ sig) → Buf (Elt Ideal) ℓ)

/-! ## Which block each window stages at a point -/

theorem idx_facts0 : ∀ t : Fin cfg0.N, win0_0.index t (0 : Fin 3) = t.val / 32 ∧ win0_0.index t (1 : Fin 3) = t.val % 32
    ∧ win0_0.index t (2 : Fin 3) = 0 :=
  (by decide +kernel : ∀ t : Fin grid0.N, _)

theorem idx_facts1 : ∀ t : Fin cfg0.N, win0_1.index t (0 : Fin 2) = 0 ∧ win0_1.index t (1 : Fin 2) = 0 :=
  (by decide +kernel : ∀ t : Fin grid0.N, _)

theorem idx_facts2 : ∀ t : Fin cfg0.N, win0_2.index t (0 : Fin 2) = 0 ∧ win0_2.index t (1 : Fin 2) = 0 :=
  (by decide +kernel : ∀ t : Fin grid0.N, _)

theorem idx_facts3 : ∀ t : Fin cfg0.N, win0_3.index t (0 : Fin 2) = t.val / 32 ∧ win0_3.index t (1 : Fin 2) = 0 :=
  (by decide +kernel : ∀ t : Fin grid0.N, _)

/-- The input block at point t: batch rows 8·(t/32) …, sequence rows 256·(t%32) …, every feature. -/
theorem iblk0_apply (c : Dev nD) (t : Fin cfg0.N) (b : Fin 8) (r : Fin 256) (h : Fin 1024) :
    iblk m c 0 t (ix3 b r h) = at3 (V m c main_arg0) (8 * (t.val / 32) + b.val) (256 * (t.val % 32) + r.val) h.val := by
  have hN : t.val < 64 := lt_of_lt_of_eq t.isLt (show cfg0.N = 64 from N_0)
  obtain ⟨e0, e1, e2⟩ := idx_facts0 t
  have hb := b.isLt; have hr := r.isLt; have hh := h.isLt
  unfold at3
  rw [dif_pos ⟨by omega, by omega, hh⟩]
  show V m c main_arg0 (((cfg0.win 0).blk t).view.emb (ix3 b r h)) = V m c main_arg0 _
  refine congrArg (V m c main_arg0) (funext fun a => Fin.ext ?_)
  match a with
  | ⟨0, _⟩ => show win0_0.index t (0 : Fin 3) * 8 + 1 * b.val = 8 * (t.val / 32) + b.val; omega
  | ⟨1, _⟩ => show win0_0.index t (1 : Fin 3) * 256 + 1 * r.val = 256 * (t.val % 32) + r.val; omega
  | ⟨2, _⟩ => show win0_0.index t (2 : Fin 3) * 1024 + 1 * h.val = h.val; omega

/-- The weights' block is the whole (bf16) weight array at every point. -/
theorem iblk1_apply (c : Dev nD) (t : Fin cfg0.N) (k j : Fin 1024) :
    iblk m c 1 t (ix2 k j) = V m c main_v0 (ix2 k j) := by
  obtain ⟨e0, e1⟩ := idx_facts1 t
  show V m c main_v0 (((cfg0.win 1).blk t).view.emb (ix2 k j)) = V m c main_v0 _
  refine congrArg (V m c main_v0) (funext fun a => Fin.ext ?_)
  match a with
  | ⟨0, _⟩ => show win0_1.index t (0 : Fin 2) * 1024 + 1 * k.val = k.val; omega
  | ⟨1, _⟩ => show win0_1.index t (1 : Fin 2) * 1024 + 1 * j.val = j.val; omega

/-- The bias's block is the whole [1, 1024] bias row at every point. -/
theorem iblk2_apply (c : Dev nD) (t : Fin cfg0.N) (k : Fin 1024) :
    iblk m c 2 t (ix2 (0 : Fin 1) k) = V m c main_v1 (ix2 (0 : Fin 1) k) := by
  obtain ⟨e0, e1⟩ := idx_facts2 t
  show V m c main_v1 (((cfg0.win 2).blk t).view.emb (ix2 (0 : Fin 1) k)) = V m c main_v1 _
  refine congrArg (V m c main_v1) (funext fun a => Fin.ext ?_)
  match a with
  | ⟨0, _⟩ => show win0_2.index t (0 : Fin 2) * 1 + 1 * (0 : Fin 1).val = (0 : Fin 1).val; omega
  | ⟨1, _⟩ => show win0_2.index t (1 : Fin 2) * 1024 + 1 * k.val = k.val; omega

/-! ## The running sums after each point -/

/-- The sum of exp over the first n sequence rows, at batch row bb and feature hh. -/
def sumL (x : S16x8192x1024.Idx → EReal) (bb hh n : ℕ) : EReal := ∑ s ∈ Finset.range n, Ideal.exp (at3 x bb s hh)
/-- The sum of x · exp x over them. -/
def sumA (x : S16x8192x1024.Idx → EReal) (bb hh n : ℕ) : EReal := ∑ s ∈ Finset.range n, at3 x bb s hh * Ideal.exp (at3 x bb s hh)

/-- A point that is not the first of its batch block extends both sums by its 256 rows. -/
theorem step_next (c : Dev nD) (t : Fin cfg0.N) (h0 : ¬t.val % 32 = 0) (b : Fin 8) (h : Fin 1024) (p0 p1 : FVec Ideal S8x1024 .f32)
    (ih : p0 (ix2 b h) = sumL (V m c main_arg0) (8 * ((t.val - 1) / 32) + b.val) h.val (256 * ((t.val - 1) % 32 + 1))
      ∧ p1 (ix2 b h) = sumA (V m c main_arg0) (8 * ((t.val - 1) / 32) + b.val) h.val (256 * ((t.val - 1) % 32 + 1))) :
    stepL (F := Ideal) p0 (iblk m c 0 t) (ix2 b h) = sumL (V m c main_arg0) (8 * (t.val / 32) + b.val) h.val (256 * (t.val % 32 + 1))
    ∧ stepA (F := Ideal) p1 (iblk m c 0 t) (ix2 b h) = sumA (V m c main_arg0) (8 * (t.val / 32) + b.val) h.val (256 * (t.val % 32 + 1)) := by
  have e1 : (t.val - 1) / 32 = t.val / 32 := by omega
  have e2 : (t.val - 1) % 32 + 1 = t.val % 32 := by omega
  rw [e1, e2] at ih
  unfold sumL sumA at ih ⊢
  exact ⟨stepL_range p0 (iblk m c 0 t) b h (fun s => at3 (V m c main_arg0) (8 * (t.val / 32) + b.val) s h.val) (t.val % 32) ih.1
      (fun r => iblk0_apply m c t b r h),
    stepA_range p1 (iblk m c 0 t) b h (fun s => at3 (V m c main_arg0) (8 * (t.val / 32) + b.val) s h.val) (t.val % 32) ih.2
      (fun r => iblk0_apply m c t b r h)⟩

/-- The first point of a batch block starts both sums from zero. -/
theorem accum_first (c : Dev nD) (t : Fin cfg0.N) (h0 : t.val % 32 = 0) (h1 : ¬t.val % 32 = 31) (b : Fin 8) (h : Fin 1024) :
    (outsAt0 m c t.val t.isLt).2.1 (ix2 b h) = sumL (V m c main_arg0) (8 * (t.val / 32) + b.val) h.val (256 * (t.val % 32 + 1))
    ∧ (outsAt0 m c t.val t.isLt).2.2 (ix2 b h) = sumA (V m c main_arg0) (8 * (t.val / 32) + b.val) h.val (256 * (t.val % 32 + 1)) := by
  rw [outsAt0_A m c t h0 h1]
  dsimp only
  unfold sumL sumA
  refine ⟨(congrFun (scratch0_first c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun hh => h1 ((hcond0_1 t).mp hh)) (iblk m c 0 t) (iblk m c 1 t) (iblk m c 2 t)) (ix2 b h)).trans ?_,
    (congrFun (scratch1_first c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun hh => h1 ((hcond0_1 t).mp hh)) (iblk m c 0 t) (iblk m c 1 t) (iblk m c 2 t)) (ix2 b h)).trans ?_⟩
  · refine stepL_range _ (iblk m c 0 t) b h (fun s => at3 (V m c main_arg0) (8 * (t.val / 32) + b.val) s h.val) (t.val % 32) ?_
      (fun r => iblk0_apply m c t b r h)
    rw [pay1_apply, h0]; rfl
  · refine stepA_range _ (iblk m c 0 t) b h (fun s => at3 (V m c main_arg0) (8 * (t.val / 32) + b.val) s h.val) (t.val % 32) ?_
      (fun r => iblk0_apply m c t b r h)
    rw [pay2_apply, h0]; rfl

/-- A later point extends what the point before left. -/
theorem accum_next (c : Dev nD) (t : Fin cfg0.N) (h0 : ¬t.val % 32 = 0) (b : Fin 8) (h : Fin 1024)
    (ih : (outsAt0 m c (t.val - 1) (Nat.lt_of_le_of_lt (Nat.sub_le _ _) t.isLt)).2.1 (ix2 b h) = sumL (V m c main_arg0) (8 * ((t.val - 1) / 32) + b.val) h.val (256 * ((t.val - 1) % 32 + 1))
      ∧ (outsAt0 m c (t.val - 1) (Nat.lt_of_le_of_lt (Nat.sub_le _ _) t.isLt)).2.2 (ix2 b h) = sumA (V m c main_arg0) (8 * ((t.val - 1) / 32) + b.val) h.val (256 * ((t.val - 1) % 32 + 1))) :
    (outsAt0 m c t.val t.isLt).2.1 (ix2 b h) = sumL (V m c main_arg0) (8 * (t.val / 32) + b.val) h.val (256 * (t.val % 32 + 1))
    ∧ (outsAt0 m c t.val t.isLt).2.2 (ix2 b h) = sumA (V m c main_arg0) (8 * (t.val / 32) + b.val) h.val (256 * (t.val % 32 + 1)) := by
  have hs := step_next m c t h0 b h _ _ ih
  by_cases h1 : t.val % 32 = 31
  · rw [outsAt0_C m c t h0 h1]
    dsimp only
    exact ⟨(congrFun (scratch0_last c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hh => h0 ((hcond0_0 t).mp hh)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) (ix2 b h)).trans hs.1,
      (congrFun (scratch1_last c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hh => h0 ((hcond0_0 t).mp hh)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) (ix2 b h)).trans hs.2⟩
  · rw [outsAt0_B m c t h0 h1]
    dsimp only
    exact ⟨(congrFun (scratch0_middle c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hh => h0 ((hcond0_0 t).mp hh)) (fun hh => h1 ((hcond0_1 t).mp hh)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) (ix2 b h)).trans hs.1,
      (congrFun (scratch1_middle c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hh => h0 ((hcond0_0 t).mp hh)) (fun hh => h1 ((hcond0_1 t).mp hh)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) (ix2 b h)).trans hs.2⟩

/-- THE RUNNING SUMS after point n: over the sequence rows the batch block's points up to n have staged. -/
theorem accum (c : Dev nD) : ∀ (n : ℕ) (hn : n < cfg0.N) (b : Fin 8) (h : Fin 1024),
    (outsAt0 m c n hn).2.1 (ix2 b h) = sumL (V m c main_arg0) (8 * (n / 32) + b.val) h.val (256 * (n % 32 + 1))
    ∧ (outsAt0 m c n hn).2.2 (ix2 b h) = sumA (V m c main_arg0) (8 * (n / 32) + b.val) h.val (256 * (n % 32 + 1)) := by
  intro n
  induction n with
  | zero => intro hn b h; exact accum_first m c ⟨0, hn⟩ rfl (show ¬(0 : ℕ) % 32 = 31 by decide) b h
  | succ k ih =>
    intro hn b h
    by_cases h0 : (k + 1) % 32 = 0
    · exact accum_first m c ⟨k + 1, hn⟩ h0 (show ¬(k + 1) % 32 = 31 by omega) b h
    · exact accum_next m c ⟨k + 1, hn⟩ h0 b h (ih (Nat.lt_of_succ_lt hn) b h)

/-- WHAT THE LAST POINT OF A BATCH BLOCK STORES: at (b, k), tanh of the ratio row against row k of the weights, plus the bias. -/
theorem out_at (c : Dev nD) (t : Fin cfg0.N) (h1 : t.val % 32 = 31) (b : Fin 8) (k : Fin 1024) :
    (outsAt0 m c t.val t.isLt).1 (ix2 b k)
      = Ideal.tanh ((∑ j : Fin 1024, Ideal.div (sumA (V m c main_arg0) (8 * (t.val / 32) + b.val) j.val 8192)
            (sumL (V m c main_arg0) (8 * (t.val / 32) + b.val) j.val 8192) * V m c main_v0 (ix2 k j))
          + V m c main_v1 (ix2 (0 : Fin 1) k)) := by
  have h0 : ¬t.val % 32 = 0 := by omega
  have hlt : t.val - 1 < cfg0.N := Nat.lt_of_le_of_lt (Nat.sub_le _ _) t.isLt
  rw [outsAt0_C m c t h0 h1]
  dsimp only
  refine (congrFun (out_last c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun hh => h0 ((hcond0_0 t).mp hh)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) (ix2 b k)).trans ?_
  refine (pay8_apply _ _ (iblk m c 1 t) (iblk m c 2 t) b k).trans ?_
  refine congrArg Ideal.tanh (congrArg₂ (· + ·) (Finset.sum_congr rfl fun j _ => ?_) (iblk2_apply m c t k))
  have hs := step_next m c t h0 b j _ _ (accum m c (t.val - 1) hlt b j)
  rw [h1] at hs
  rw [hs.1, hs.2, iblk1_apply m c t k j]

end Cert.KernelIdeal.Pool
end
-- ==== Proof.ShiftLaw.lean ====
/-
  The softmax shift law over the reals: for real x_s and any real shift M,
  Σ_s x_s · (exp (x_s − M) / Σ_s' exp (x_s' − M)) = (Σ_s x_s · exp x_s) / (Σ_s exp x_s).
-/
import Mathlib

namespace SoftmaxPool

open Finset

/-- The shifted softmax-weighted mean is the unshifted ratio of sums. -/
theorem shift_law {ι : Type*} (s : Finset ι) (hs : s.Nonempty) (x : ι → ℝ) (M : ℝ) :
    ∑ i ∈ s, x i * (Real.exp (x i - M) / ∑ j ∈ s, Real.exp (x j - M))
      = (∑ i ∈ s, x i * Real.exp (x i)) / ∑ j ∈ s, Real.exp (x j) := by
  have hpos : 0 < ∑ j ∈ s, Real.exp (x j) := Finset.sum_pos (fun j _ => Real.exp_pos _) hs
  have hM : ∀ j, Real.exp (x j - M) = Real.exp (x j) * Real.exp (-M) := by
    intro j; rw [sub_eq_add_neg, Real.exp_add]
  have hsum : ∑ j ∈ s, Real.exp (x j - M) = (∑ j ∈ s, Real.exp (x j)) * Real.exp (-M) := by
    rw [Finset.sum_mul]; exact Finset.sum_congr rfl (fun j _ => hM j)
  rw [hsum, Finset.sum_div]
  refine Finset.sum_congr rfl (fun i _ => ?_)
  rw [hM i]
  have hne : (∑ j ∈ s, Real.exp (x j)) ≠ 0 := ne_of_gt hpos
  have hne' : Real.exp (-M) ≠ 0 := (Real.exp_pos _).ne'
  field_simp

end SoftmaxPool
-- ==== Proof.Spec.lean ====
/-
  The function both programs compute, and the law that joins them.

  For x : [16, 8192, 1024], W : [1024, 1024], bias : [1024]:
    pooled x (b, j) = (Σ_s x(b,s,j) · exp x(b,s,j)) / (Σ_s exp x(b,s,j))        (sums over the 8192 sequence rows)
    G x W bias (b, k) = tanh (Σ_j pooled x (b, j) · W(k, j) + bias(k)).
  The kernel accumulates the two sums directly. The reference normalises first: with any real shift M it forms
  p_s = exp (x_s − M) / Σ_s' exp (x_s' − M) and sums x_s · p_s. For REAL x_s the factor exp (−M) cancels, and
  dividing each term by the common positive denominator is dividing the sum by it; at an infinite x_s neither step
  holds, which is why the inputs are taken finite.
-/
import proofs.«142981_j55825984913418_2_alg».proof.Proof.ShiftLaw
import Idealize.ShloMosaic.PureOps.Ideal
import Idealize.ShloMosaic.Lib.ValueIdx

noncomputable section

namespace SoftmaxPool

open Idealize.ShloMosaic Idealize.ShloMosaic.ValueIdx

/-- The softmax-weighted mean over the sequence axis, as the ratio of the two sums. -/
def pooled (x : (⟨3, ![16, 8192, 1024]⟩ : Shape).Idx → EReal) (b : Fin 16) (j : Fin 1024) : EReal :=
  Ideal.div (∑ s : Fin 8192, x (ix3 b s j) * Ideal.exp (x (ix3 b s j))) (∑ s : Fin 8192, Ideal.exp (x (ix3 b s j)))

/-- The head applied to the pooled row: the product with Wᵀ, the bias, tanh. -/
def headAt (x : (⟨3, ![16, 8192, 1024]⟩ : Shape).Idx → EReal) (W : (⟨2, ![1024, 1024]⟩ : Shape).Idx → EReal)
    (bias : (⟨1, ![1024]⟩ : Shape).Idx → EReal) (b : Fin 16) (k : Fin 1024) : EReal :=
  Ideal.tanh ((∑ j : Fin 1024, pooled x b j * W (ix2 k j)) + bias (ix1 k))

/-- The whole result array. -/
def G (x : (⟨3, ![16, 8192, 1024]⟩ : Shape).Idx → EReal) (W : (⟨2, ![1024, 1024]⟩ : Shape).Idx → EReal)
    (bias : (⟨1, ![1024]⟩ : Shape).Idx → EReal) : (⟨2, ![16, 1024]⟩ : Shape).Idx → EReal :=
  fun i => headAt x W bias (i 0) (i 1)

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals, the divisor not zero, is the real quotient. -/
theorem div_real (a b : ℝ) (hb : b ≠ 0) : Ideal.div (a : EReal) (b : EReal) = ((a / b : ℝ) : EReal) := by
  rw [Ideal.div_coe hb, ← EReal.coe_mul, mul_one_div]

/-- THE LAW. For real entries and any real shift the normalise-then-sum form is the ratio of sums. -/
theorem pooled_shift {n : ℕ} (hn : 0 < n) (x : Fin n → ℝ) (M : ℝ) :
    (0 : EReal) + ∑ s : Fin n, (x s : EReal)
        * Ideal.div (Ideal.exp ((x s : EReal) - (M : EReal))) (0 + ∑ s' : Fin n, Ideal.exp ((x s' : EReal) - (M : EReal)))
      = Ideal.div (∑ s : Fin n, (x s : EReal) * Ideal.exp (x s : EReal)) (∑ s : Fin n, Ideal.exp (x s : EReal)) := by
  have hne : (Finset.univ : Finset (Fin n)).Nonempty := ⟨⟨0, hn⟩, Finset.mem_univ _⟩
  have hposM : 0 < ∑ s' : Fin n, Real.exp (x s' - M) := Finset.sum_pos (fun j _ => Real.exp_pos _) hne
  have hpos : 0 < ∑ s' : Fin n, Real.exp (x s') := Finset.sum_pos (fun j _ => Real.exp_pos _) hne
  have e1 : ∀ s : Fin n, Ideal.exp ((x s : EReal) - (M : EReal)) = ((Real.exp (x s - M) : ℝ) : EReal) := fun s => by
    rw [← EReal.coe_sub]; rfl
  have e2 : ∀ s : Fin n, Ideal.exp (x s : EReal) = ((Real.exp (x s) : ℝ) : EReal) := fun s => rfl
  simp only [e1, e2, zero_add, ← coe_sum, ← EReal.coe_mul]
  rw [div_real _ _ hpos.ne']
  have e3 : ∀ s : Fin n, Ideal.div ((Real.exp (x s - M) : ℝ) : EReal) ((∑ s' : Fin n, Real.exp (x s' - M) : ℝ) : EReal)
      = ((Real.exp (x s - M) / ∑ s' : Fin n, Real.exp (x s' - M) : ℝ) : EReal) := fun s => div_real _ _ hposM.ne'
  simp only [e3, ← EReal.coe_mul, ← coe_sum]
  exact congrArg _ (shift_law Finset.univ hne x M)

end SoftmaxPool
end
-- ==== Proof.KernelValue.lean ====
/-
  The kernel's result array is the specification G of its arguments.

  Output block q (batch rows 8q … 8q+7) is written back once, by the last point of its batch block, n = 32q + 31; there
  both running sums range over all 8192 sequence rows, so the stored block is G's block. The two blocks cover the
  [16, 1024] result. The weights the region reads are the arguments' own values (the host's change of format is the
  identity on the extended reals), the bias its one row.
-/
import proofs.«142981_j55825984913418_2_alg».proof.Proof.KernelAccum
import proofs.«142981_j55825984913418_2_alg».proof.Proof.Spec
import Idealize.ShloMosaic.Lib.StableHlo.Run

set_option maxRecDepth 16384

noncomputable section

namespace Cert.KernelIdeal.Pool

open Cert.KernelIdeal Cert.KernelIdeal.Gen Idealize.ShloMosaic Idealize.ShloMosaic.TcCoe Idealize.ShloMosaic.ValueIdx Idealize.SL.Sem
open Idealize.ShloMosaic.Pipeline (Dat)

/-- Over all 8192 rows the running sums are the specification's. -/
theorem sumL_full (x : S16x8192x1024.Idx → EReal) (bb : Fin 16) (j : Fin 1024) :
    sumL x bb.val j.val 8192 = ∑ s : Fin 8192, Ideal.exp (x (ix3 bb s j)) := by
  unfold sumL
  rw [Finset.sum_range]
  refine Finset.sum_congr rfl fun s _ => ?_
  unfold at3
  rw [dif_pos ⟨bb.isLt, s.isLt, j.isLt⟩]

theorem sumA_full (x : S16x8192x1024.Idx → EReal) (bb : Fin 16) (j : Fin 1024) :
    sumA x bb.val j.val 8192 = ∑ s : Fin 8192, x (ix3 bb s j) * Ideal.exp (x (ix3 bb s j)) := by
  unfold sumA
  rw [Finset.sum_range]
  refine Finset.sum_congr rfl fun s _ => ?_
  unfold at3
  rw [dif_pos ⟨bb.isLt, s.isLt, j.isLt⟩]

/-- G over the arrays as the region finds them: the weights in their staged format, the bias as a [1, 1024] row. -/
def Gk (X : S16x8192x1024.Idx → EReal) (W : S1024x1024.Idx → EReal) (B : S1x1024.Idx → EReal) : S16x1024.Idx → EReal :=
  fun i => Ideal.tanh ((∑ j : Fin 1024, SoftmaxPool.pooled X (i 0) j * W (ix2 (i 1) j)) + B (ix2 (0 : Fin 1) (i 1)))

variable (m : (ℓ : Loc nD τ sig) → Buf (Elt Ideal) ℓ) (ρ : Dev nD → PrngReg)

/-- An index of the result is in point t's output block iff each coordinate is in the block's range. -/
theorem mem_blk3 (t : Fin cfg0.N) (i : S16x1024.Idx) :
    i ∈ ((cfg0.win 3).blk t).view.set ↔ ∀ a : Fin 2, win0_3.index t a * S8x1024.size a ≤ (i a).val
      ∧ (i a).val < win0_3.index t a * S8x1024.size a + S8x1024.size a := by
  show i ∈ ((View.whole main_v2).slice (win0_3.rect t)).set ↔ _
  rw [View.set_slice_whole, Rect.mem_set_unit]
  exact Iff.rfl

/-- WHAT A WRITING POINT WRITES BACK is its block of G. -/
theorem flushed_eq (c : Dev nD) (t : Fin cfg0.N) (hf : (cfg0.win 3).flush t = true) :
    (dats m 0 c).flushed 3 t
      = ((cfg0.win 3).blk t).view.read (Elt Ideal) (Gk (V m c main_arg0) (V m c main_v0) (V m c main_v1)) := by
  have h1 : t.val % 32 = 31 := (flush0_3 t).mp hf
  have hN : t.val < 64 := lt_of_lt_of_eq t.isLt (show cfg0.N = 64 from N_0)
  obtain ⟨e0, e1⟩ := idx_facts3 t
  rw [Value.flushed3]
  refine funext fun (y : S8x1024.Idx) => ?_
  obtain ⟨b, k, rfl⟩ : ∃ (b : Fin 8) (k : Fin 1024), y = ix2 b k := ⟨y 0, y 1, eq_ix2 y⟩
  have hb := b.isLt
  show (outsAt0 m c t.val t.isLt).1 (ix2 b k)
    = Gk (V m c main_arg0) (V m c main_v0) (V m c main_v1) (((cfg0.win 3).blk t).view.emb (ix2 b k))
  have hemb : ((cfg0.win 3).blk t).view.emb (ix2 b k) = ix2 (⟨8 * (t.val / 32) + b.val, by omega⟩ : Fin 16) k := by
    funext a; apply Fin.ext
    match a with
    | ⟨0, _⟩ => show win0_3.index t (0 : Fin 2) * 8 + 1 * b.val = 8 * (t.val / 32) + b.val; omega
    | ⟨1, _⟩ => show win0_3.index t (1 : Fin 2) * 1024 + 1 * k.val = k.val; omega
  rw [hemb, out_at m c t h1 b k]
  unfold Gk SoftmaxPool.pooled
  refine congrArg Ideal.tanh (congrArg₂ (· + ·) (Finset.sum_congr rfl fun j _ => ?_) rfl)
  rw [sumA_full (V m c main_arg0) ⟨8 * (t.val / 32) + b.val, by omega⟩ j, sumL_full (V m c main_arg0) ⟨8 * (t.val / 32) + b.val, by omega⟩ j]

/-- Every index of the result lies in the block some writing point writes back. -/
theorem cover (i : S16x1024.Idx) : ∃ t : Fin cfg0.N, (cfg0.win 3).flush t = true ∧ i ∈ ((cfg0.win 3).blk t).view.set := by
  have hi0 : (i 0).val < 16 := (i 0).isLt
  have hi1 : (i 1).val < 1024 := (i 1).isLt
  have hlt : 32 * ((i 0).val / 8) + 31 < cfg0.N := by rw [show cfg0.N = 64 from N_0]; omega
  refine ⟨⟨32 * ((i 0).val / 8) + 31, hlt⟩, (flush0_3 _).mpr (by show (32 * ((i 0).val / 8) + 31) % 32 = 31; omega), ?_⟩
  rw [mem_blk3]
  obtain ⟨e0, e1⟩ := idx_facts3 ⟨32 * ((i 0).val / 8) + 31, hlt⟩
  have e0' : win0_3.index ⟨32 * ((i 0).val / 8) + 31, hlt⟩ (0 : Fin 2) = (32 * ((i 0).val / 8) + 31) / 32 := e0
  intro a
  match a with
  | ⟨0, _⟩ =>
    show win0_3.index ⟨32 * ((i 0).val / 8) + 31, hlt⟩ (0 : Fin 2) * 8 ≤ (i 0).val
      ∧ (i 0).val < win0_3.index ⟨32 * ((i 0).val / 8) + 31, hlt⟩ (0 : Fin 2) * 8 + 8
    omega
  | ⟨1, _⟩ =>
    show win0_3.index ⟨32 * ((i 0).val / 8) + 31, hlt⟩ (1 : Fin 2) * 1024 ≤ (i 1).val
      ∧ (i 1).val < win0_3.index ⟨32 * ((i 0).val / 8) + 31, hlt⟩ (1 : Fin 2) * 1024 + 1024
    omega

/-- THE RESULT ARRAY after the run. -/
theorem final (c : Dev nD) :
    (dats m 0 c).arrAt 3 cfg0.N = Gk (V m c main_arg0) (V m c main_v0) (V m c main_v1) :=
  (dats m 0 c).arrAt_eq_of_cover 3 _ (fun t hf => flushed_eq m c t hf) (fun i => cover i)

/-- The staged weights are the argument's, entry by entry (the change of format is the identity here). -/
theorem V_weights (c : Dev nD) (k j : Fin 1024) :
    V m c main_v0 (ix2 k j) = m ((c : Thread nD τ).loc main_arg1) (ix2 k j) := by
  have e : (V m c main_v0 : S1024x1024.Idx → EReal)
      = truncf (F := Ideal) .bf16 (m ((c : Thread nD τ).loc main_arg1) : FVec Ideal S1024x1024 .f32) bitsLt_bf16_f32 := by
    dsimp only [Gen.V, Gen.hostOps0]; after_results
  rw [e]; rfl

/-- The staged bias row is the argument's. -/
theorem V_bias (c : Dev nD) (k : Fin 1024) :
    V m c main_v1 (ix2 (0 : Fin 1) k) = m ((c : Thread nD τ).loc main_arg2) (ix1 k) := by
  have e : (V m c main_v1 : S1x1024.Idx → EReal)
      = shapeCast S1x1024 (m ((c : Thread nD τ).loc main_arg2) : S1024.Idx → EReal) shapeCasts_S1024_S1x1024 := by
    dsimp only [Gen.V, Gen.hostOps0]; after_results; rfl
  rw [e]
  exact shapeCast_a_1a_apply _ _ (0 : Fin 1) k

/-- … so the result is G of the three arguments. -/
theorem final_args (c : Dev nD) :
    (dats m 0 c).arrAt 3 cfg0.N
      = SoftmaxPool.G (m ((c : Thread nD τ).loc main_arg0)) (m ((c : Thread nD τ).loc main_arg1)) (m ((c : Thread nD τ).loc main_arg2)) := by
  rw [final m c]
  funext i
  unfold Gk SoftmaxPool.G SoftmaxPool.headAt
  rw [V_main_arg0 m c]
  refine congrArg Ideal.tanh (congrArg₂ (· + ·) (Finset.sum_congr rfl fun j _ => ?_) (V_bias m c (i 1)))
  rw [V_weights m c (i 1) j]

/-- THE KERNEL'S RUN: the result array at G of the arguments, the arguments unchanged. -/
theorem run : θ_run defs (onTc (τ := τ) (main (F := Ideal))) ⟨m, fun _ => 0, ρ⟩ fun r => ∀ c : Dev nD,
      r.2.mem ((c : Thread nD τ).loc main_v2)
        = SoftmaxPool.G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_args m c), (h c).2⟩) (Value.run_blocks m ρ)

end Cert.KernelIdeal.Pool
end
-- ==== Proof.RefValue.lean ====
/-
  The reference's result is the specification G, for real inputs.

  The reference transposes x to [16, 1024, 8192], takes M(b, j) = max (−∞, max_s x), p = exp (x − M) / Σ exp (x − M),
  pooled = Σ_s x · p, then pooled · Wᵀ + bias and tanh. M(b, j) is a real number (a maximum of reals over a non-empty
  range), so the shift law applies; the matrix product, bias and tanh are G's own.
-/
import proofs.«142981_j55825984913418_2_alg».proof.Proof.Gen.ReferenceIdeal.Read
import proofs.«142981_j55825984913418_2_alg».proof.Proof.Spec
import Idealize.ShloMosaic.Lib.ValueIdx
import Idealize.ShloMosaic.PureOps.Ideal.Laws
import Idealize.ShloMosaic.PureOps.Reduce
import Mathlib.Data.Finset.Fold

set_option maxRecDepth 16384

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx

/-- The maximum of finitely many reals, taken from a start below +∞ and joined with one more value below +∞, is real. -/
theorem fold_max_real {n : ℕ} (hn : 0 < n) (f : Fin n → EReal) (hf : ∀ i, ∃ r : ℝ, f i = (r : EReal)) (a b : EReal)
    (ha : a < ⊤) (hb : b < ⊤) : ∃ M : ℝ, max a ((Finset.univ : Finset (Fin n)).fold max b f) = (M : EReal) := by
  have hlt : max a ((Finset.univ : Finset (Fin n)).fold max b f) < ⊤ :=
    max_lt ha ((Finset.fold_max_lt _).mpr ⟨hb, fun i _ => by obtain ⟨r, hr⟩ := hf i; rw [hr]; exact EReal.coe_lt_top r⟩)
  have hgt : ⊥ < max a ((Finset.univ : Finset (Fin n)).fold max b f) :=
    lt_max_of_lt_right ((Finset.lt_fold_max _).mpr (Or.inr ⟨⟨0, hn⟩, Finset.mem_univ _, by
      obtain ⟨r, hr⟩ := hf ⟨0, hn⟩; rw [hr]; exact EReal.bot_lt_coe r⟩))
  exact ⟨_, (EReal.coe_toReal hlt.ne hgt.ne').symm⟩

/-- The f32 pattern of −∞ is below +∞. -/
theorem neg_inf_lt_top : Ideal.ofBits .f32 0xFF800000#32 < ⊤ := by
  have : Ideal.ofBits .f32 0xFF800000#32 = ⊥ := by simp [Ideal.ofBits, Ideal.ieee]
  rw [this]; exact bot_lt_top

variable (x0 : S16x8192x1024.Idx → EReal)

/-- The shift the reference subtracts at (b, j) is a real number. -/
theorem max_real (hfin : ∀ i, ∃ r : ℝ, x0 i = (r : EReal)) (b : Fin 16) (j : Fin 1024) : ∃ M : ℝ, val_main_v3 (F := Ideal) x0 (ix2 b j) = (M : EReal) := by
  rw [val_main_v3_apply]
  unfold val_main_v1
  have hred : S16x1024x8192.Reduces [2] S16x1024 := by decide
  have hfold := Host.reduce_eq_fold_single (FloatOps.maximumf (F := Ideal) (φ := .f32)) (val_main_v0 (F := Ideal) x0)
    (val_main_cst (F := Ideal)) reducesTo_S16x1024x8192_S16x1024_d2 hred h_S_ (ix2 b j)
  rw [hfold]
  exact fold_max_real (n := 8192) (by decide) _ (fun k => by
    obtain ⟨r, hr⟩ := hfin (idx_main_v0 (hred.lift (ix2 b j) k))
    exact ⟨r, (val_main_v0_apply (F := Ideal) x0 (hred.lift (ix2 b j) k)).trans hr⟩) _ _ neg_inf_lt_top neg_inf_lt_top

/-- The reference's pooled value is the ratio of sums. -/
theorem pooled_ref (hfin : ∀ i, ∃ r : ℝ, x0 i = (r : EReal)) (b : Fin 16) (j : Fin 1024) :
    val_main_v13 (F := Ideal) x0 (ix2 b j) = SoftmaxPool.pooled x0 b j := by
  obtain ⟨M, hM⟩ := max_real x0 hfin b j
  choose xr hxr using hfin
  have i0 : ∀ s : Fin 8192, idx_main_v0 (ix3 b j s) = ix3 b s j := fun s => funext fun a => Fin.ext (by match a with | ⟨0, _⟩ => rfl | ⟨1, _⟩ => rfl | ⟨2, _⟩ => rfl)
  have hv7 : ∀ s : Fin 8192, val_main_v7 (F := Ideal) x0 (ix3 b j s) = Ideal.exp (x0 (ix3 b s j) - (M : EReal)) := fun s => by
    have e2 : idx_main_v4 (idx_main_v5 (ix3 b j s)) = ix2 b j := funext fun a => Fin.ext (by match a with | ⟨0, _⟩ => rfl | ⟨1, _⟩ => rfl)
    rw [val_main_v7_apply, val_main_v6_apply, val_main_v0_apply, val_main_v5_apply, val_main_v4_apply, i0, e2, hM]
    rfl
  have hv8 : val_main_v8 (F := Ideal) x0 (ix2 b j) = 0 + ∑ s : Fin 8192, Ideal.exp (x0 (ix3 b s j) - (M : EReal)) := by
    rw [val_main_v8_apply]
    refine congrArg₂ (· + ·) Ideal.ofBits_zero_f32 (Finset.sum_congr rfl fun s _ => ?_)
    have e : idx_main_v8 (ix2 b j) s = ix3 b j s := funext fun a => Fin.ext (by match a with | ⟨0, _⟩ => rfl | ⟨1, _⟩ => rfl | ⟨2, _⟩ => rfl)
    rw [e, hv7]
  have hv12 : ∀ s : Fin 8192, val_main_v12 (F := Ideal) x0 (idx_main_v13 (ix2 b j) s)
      = x0 (ix3 b s j) * Ideal.div (Ideal.exp (x0 (ix3 b s j) - (M : EReal))) (0 + ∑ s' : Fin 8192, Ideal.exp (x0 (ix3 b s' j) - (M : EReal))) := fun s => by
    have e0 : idx_main_v13 (ix2 b j) s = ix3 b j s := funext fun a => Fin.ext (by match a with | ⟨0, _⟩ => rfl | ⟨1, _⟩ => rfl | ⟨2, _⟩ => rfl)
    have e3 : idx_main_v9 (idx_main_v10 (ix3 b j s)) = ix2 b j := funext fun a => Fin.ext (by match a with | ⟨0, _⟩ => rfl | ⟨1, _⟩ => rfl)
    rw [e0, val_main_v12_apply, val_main_v11_apply, val_main_v10_apply, val_main_v9_apply, val_main_v0_apply, hv7, i0, e3, hv8]
    rfl
  rw [val_main_v13_apply]
  simp only [hv12]
  have hx : ∀ s : Fin 8192, x0 (ix3 b s j) = ((xr (ix3 b s j) : ℝ) : EReal) := fun s => hxr _
  unfold SoftmaxPool.pooled
  simp only [hx]
  refine Eq.trans (congrArg (· + _) Ideal.ofBits_zero_f32) ?_
  exact SoftmaxPool.pooled_shift (by decide) (fun s => xr (ix3 b s j)) M

/-- THE REFERENCE IS G. -/
theorem ref_eq (hfin : ∀ i, ∃ r : ℝ, x0 i = (r : EReal)) (x1 : S1024x1024.Idx → EReal) (x2 : S1024.Idx → EReal) :
    val_main_v19 (F := Ideal) x0 x1 x2 = SoftmaxPool.G x0 x1 x2 := by
  funext i
  obtain ⟨b, k, rfl⟩ : ∃ (b : Fin 16) (k : Fin 1024), i = ix2 b k := ⟨i 0, i 1, eq_ix2 i⟩
  rw [val_main_v19_apply, val_main_v18_apply, val_main_v15_apply, val_main_v17_apply, val_main_v16_apply]
  show Ideal.tanh (_ + _) = Ideal.tanh (_ + _)
  refine congrArg Ideal.tanh (congrArg₂ (· + ·) (Finset.sum_congr rfl fun j _ => ?_) ?_)
  · have el : lidx_main_v15 (ix2 b k) j = ix2 b j := funext fun a => Fin.ext (by match a with | ⟨0, _⟩ => rfl | ⟨1, _⟩ => rfl)
    have er : idx_main_v14 (ridx_main_v15 (ix2 b k) j) = ix2 k j := funext fun a => Fin.ext (by match a with | ⟨0, _⟩ => rfl | ⟨1, _⟩ => rfl)
    rw [val_main_v14_apply, el, er, pooled_ref x0 hfin b j]
  · exact congrArg x2 (funext fun a => Fin.ext (by match a with | ⟨0, _⟩ => rfl))

end Cert.ReferenceIdeal.RefValue
end
-- ==== Proof.Finite.lean ====
/-
  The precondition makes every entry of the first input a real number.

  finite_inputs is the conjunction of three jnp.all's; its first conjunct says |x| < +∞ at every entry of
  hidden_states, and an extended real whose absolute value max (x, −x) is below +∞ is neither +∞ nor −∞.
-/
import proofs.«142981_j55825984913418_2_alg».proof.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic Idealize.ShloMosaic.ValueIdx

instance : Subsingleton S_.Idx := ⟨fun a b => funext fun d => d.elim0⟩

/-- An extended real whose absolute value is below the f32 pattern of +∞ is a real number. -/
theorem real_of_abs_lt (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : Ideal.cmp .olt (max x (-x)) ⊤ = 1#1 := by rw [← htop]; exact h
  induction x using EReal.rec with
  | bot => exfalso; revert h'; simp [Ideal.cmp]
  | top => exfalso; revert h'; simp [Ideal.cmp]
  | coe r => exact ⟨r, rfl⟩

variable [Facts]

/-- Under finite_inputs every entry of the [16, 8192, 1024] input is real. -/
theorem x_real (x0 : FVec Ideal S16x8192x1024 .f32) (x1 : FVec Ideal S1024x1024 .f32) (x2 : FVec Ideal S1024 .f32)
    (h : fn (F := Ideal) x0 x1 x2 = fun _ => 1#1) (i : S16x8192x1024.Idx) : ∃ r : ℝ, x0 i = (r : EReal) := by
  have h0 := congrFun h ix0
  dsimp only [fn] at h0
  obtain ⟨h8, -⟩ := IntOp.andi_eq_one.1 h0
  obtain ⟨h3, -⟩ := IntOp.andi_eq_one.1 h8
  exact real_of_abs_lt (x0 i) (Host.reduce_andi_all _ _ _ _ _ h3 i)

end Cert.Pre_finite_inputs.Finite
end
-- ==== Proof.lean ====
/-
  Softmax-weighted pooling over the sequence axis, then a linear layer and tanh: the kernel against its reference,
  equal on the extended reals for finite inputs.

  The kernel walks the sequence axis in 32 tiles of 256 rows per batch block of 8, keeping two running sums per
  (batch row, feature): l = Σ_s exp x and a = Σ_s x · exp x; at the last tile it stores tanh ((a / l) · Wᵀ + b).
  The reference computes softmax with the usual shift by the row maximum M, p_s = exp (x_s − M) / Σ exp (x − M), and
  Σ_s x_s · p_s. For real x the shift cancels and the two poolings are one number (Proof/ShiftLaw.lean, lifted to the
  extended reals in Proof/Spec.lean); the matrix product, bias and tanh are then the same function of it. Only the
  finiteness of hidden_states is used: W and b enter both sides identically.

  Proof/KernelPieces.lean reads each control case of the body as a pure update of the two sums, Proof/KernelSums.lean
  reads the updates at an index, Proof/KernelAccum.lean carries the sums through the grid by induction,
  Proof/KernelValue.lean turns the blocks written back into the whole result array, Proof/RefValue.lean shows the
  reference's result is the same function, Proof/Finite.lean reads the precondition.
-/
import proofs.«142981_j55825984913418_2_alg».proof.Defs
import proofs.«142981_j55825984913418_2_alg».proof.Proof.Gen.Kernel
import proofs.«142981_j55825984913418_2_alg».proof.Proof.Gen.Kernel.Frame
import proofs.«142981_j55825984913418_2_alg».proof.Proof.Gen.KernelIdeal
import proofs.«142981_j55825984913418_2_alg».proof.Proof.Gen.KernelIdeal.Frame
import proofs.«142981_j55825984913418_2_alg».proof.Proof.Gen.KernelIdeal.Value
import proofs.«142981_j55825984913418_2_alg».proof.Proof.Gen.ReferenceIdeal
import proofs.«142981_j55825984913418_2_alg».proof.Proof.Gen.ReferenceIdeal.Run
import proofs.«142981_j55825984913418_2_alg».proof.Proof.Gen.ReferenceIdeal.Read
import proofs.«142981_j55825984913418_2_alg».proof.Proof.Gen.Pre_finite_inputs
import proofs.«142981_j55825984913418_2_alg».proof.Proof.KernelValue
import proofs.«142981_j55825984913418_2_alg».proof.Proof.RefValue
import proofs.«142981_j55825984913418_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with G of the (agreeing) arguments. -/
theorem algebraic : Cert.algebraic_KernelIdeal_ReferenceIdeal := by
  intro m ρ m' ρ' hpre hagree
  refine ⟨fun c => SoftmaxPool.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Pool.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v19_eq _ _ _).trans ?_
  rw [(hagree c).1, (hagree c).2.1, (hagree c).2.2]
  exact Cert.ReferenceIdeal.RefValue.ref_eq _ (fun i => Cert.Pre_finite_inputs.Finite.x_real _ _ _ (hpre c) i) _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
